-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4x1024x1024 : Shape := ⟨4, ![16, 4, 1024, 1024]⟩
abbrev S_ : Shape := ⟨0, ![]⟩

class Facts : Prop where
  bcast_S_S16x4x1024x1024 : S_.BroadcastsInDim S16x4x1024x1024 (![] : Fin 0 → Fin S16x4x1024x1024.rank)
  reducesTo_S16x4x1024x1024_S_d0_1_2_3 : S16x4x1024x1024.ReducesTo [0, 1, 2, 3] S_
  h_S_ : 0 < S_.numel

variable [Facts]

def fn {F : FTy → Type} [FloatOps F] (main_arg0 : FVec F S16x4x1024x1024 .f32) : IVec S_ 1 :=
  let main_v0 : FVec F S16x4x1024x1024 .f32 := Host.absf main_arg0
  let main_cst : FVec F S_ .f32 := constant S_ .f32 0x7F800000#32
  let main_v1 : FVec F S16x4x1024x1024 .f32 := broadcastInDim S16x4x1024x1024 ![] bcast_S_S16x4x1024x1024 main_cst
  let main_v2 : IVec S16x4x1024x1024 1 := cmpf .olt main_v0 main_v1
  let main_c : IVec S_ 1 := constantI S_ 1 1#1
  let main_v3 : IVec S_ 1 := (fun x v => Host.reduce IntOp.andi x v reducesTo_S16x4x1024x1024_S_d0_1_2_3 h_S_) main_v2 main_c
  main_v3
-- ==== Kernel.lean ====
abbrev S16x4x1024x1024 : Shape := ⟨4, ![16, 4, 1024, 1024]⟩
abbrev S16x1x2048x2048 : Shape := ⟨4, ![16, 1, 2048, 2048]⟩
abbrev S1x4x64x128 : Shape := ⟨4, ![1, 4, 64, 128]⟩
abbrev S1x1x128x256 : Shape := ⟨4, ![1, 1, 128, 256]⟩
abbrev S4x64x128 : Shape := ⟨3, ![4, 64, 128]⟩
abbrev S2x2x64x128 : Shape := ⟨4, ![2, 2, 64, 128]⟩
abbrev S64x2x128x2 : Shape := ⟨4, ![64, 2, 128, 2]⟩
abbrev S128x256 : Shape := ⟨2, ![128, 256]⟩
abbrev S1x64x128 : Shape := ⟨3, ![1, 64, 128]⟩
abbrev S64x128 : Shape := ⟨2, ![64, 128]⟩

abbrev nBuf : Space → Nat
  | .hbm => 3
  | .vmem => 8
  | .smem => 0
  | _ => 0

abbrev bufTy : (tb : Table) → Fin (tcTables nBuf tb) → BufTy
  | .hbm, ⟨0, _⟩ => ⟨S16x4x1024x1024, .f32⟩
  | .hbm, ⟨1, _⟩ => ⟨S16x1x2048x2048, .f32⟩
  | .hbm, ⟨2, _⟩ => ⟨S16x1x2048x2048, .f32⟩
  | .local _ .vmem, ⟨0, _⟩ => ⟨S1x4x64x128, .f32⟩
  | .local _ .vmem, ⟨1, _⟩ => ⟨S1x4x64x128, .f32⟩
  | .local _ .vmem, ⟨2, _⟩ => ⟨S1x4x64x128, .f32⟩
  | .local _ .vmem, ⟨3, _⟩ => ⟨S1x4x64x128, .f32⟩
  | .local _ .vmem, ⟨4, _⟩ => ⟨S1x1x128x256, .f32⟩
  | .local _ .vmem, ⟨5, _⟩ => ⟨S1x1x128x256, .f32⟩
  | .local _ .vmem, ⟨6, _⟩ => ⟨S1x1x128x256, .f32⟩
  | .local _ .vmem, ⟨7, _⟩ => ⟨S1x1x128x256, .f32⟩
  | _, _ => ⟨S16x4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 8, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg0.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg0.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg0.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg0.toNat, arg1.toNat]

abbrev stage0_0 : Fin 2 → Memref sig .tc .vmem S1x4x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  inb_S1x4x64x128_S1x4x64x128_0_0_0_0 : ∀ a, (![0, 0, 0, 0] : Fin 4 → Nat) a + S1x4x64x128.size a ≤ S1x4x64x128.size a
  h_S1x4x64x128 : 0 < S1x4x64x128.numel
  shapeCasts_S1x4x64x128_S4x64x128 : S1x4x64x128.ShapeCasts S4x64x128
  shapeCasts_S4x64x128_S2x2x64x128 : S4x64x128.ShapeCasts S2x2x64x128
  transposes_S2x2x64x128_p2_1_3_0_S64x2x128x2 : S2x2x64x128.Transposes [2, 1, 3, 0] S64x2x128x2
  shapeCasts_S64x2x128x2_S128x256 : S64x2x128x2.ShapeCasts S128x256
  inb_S1x1x128x256_S1x1x128x256_0_0_0_0 : ∀ a, (![0, 0, 0, 0] : Fin 4 → Nat) a + S1x1x128x256.size a ≤ S1x1x128x256.size a
  h_S1x1x128x256 : 0 < S1x1x128x256.numel
  shapeCasts_S1x1x128x256_S128x256 : S1x1x128x256.ShapeCasts S128x256
  shapeCasts_S128x256_S1x1x128x256 : S128x256.ShapeCasts S1x1x128x256
  slices_S4x64x128_o0_0_0_S1x64x128 : S4x64x128.Slices ![0, 0, 0] S1x64x128
  shapeCasts_S1x64x128_S64x128 : S1x64x128.ShapeCasts S64x128
  slices_S4x64x128_o1_0_0_S1x64x128 : S4x64x128.Slices ![1, 0, 0] S1x64x128
  slices_S4x64x128_o2_0_0_S1x64x128 : S4x64x128.Slices ![2, 0, 0] S1x64x128
  shapeCasts_S64x128_S1x64x128 : S64x128.ShapeCasts S1x64x128
  concatenates_S1x64x128_S1x64x128_S1x64x128_S1x64x128_S4x64x128_d0 : Shape.Concatenates [S1x64x128, S1x64x128, S1x64x128, S1x64x128] S4x64x128 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x64x128.size a ≤ S16x4x1024x1024.size a
  hwx0_0 : ∀ i : grid0.Coords, EltTy.bits .f32 = 32 ∨ (Rect.block (s := S16x4x1024x1024) S1x4x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x64x128.size a ≤ S16x4x1024x1024.size a
  hwx0_1 : ∀ i : grid0.Coords, EltTy.bits .f32 = 32 ∨ (Rect.block (s := S16x4x1024x1024) S1x4x64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128x256.size a ≤ S16x1x2048x2048.size a
  hwx0_2 : ∀ i : grid0.Coords, EltTy.bits .f32 = 32 ∨ (Rect.block (s := S16x1x2048x2048) S1x1x128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128x256.size a ≤ S16x1x2048x2048.size a
  hwx0_3 : ∀ i : grid0.Coords, EltTy.bits .f32 = 32 ∨ (Rect.block (s := S16x1x2048x2048) S1x1x128x256.size (cc0_transform_3 i) (hinb0_3 i)).WholeWords (EltTy.packing .f32)

variable [Facts₀]

abbrev win0_0 : Pipeline.Window sig grid0 :=
  Pipeline.Window.ofSpec (Memref.whole main_arg0) S1x4x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x4x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x128x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x128x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4x1024x1024 : Shape := ⟨4, ![16, 4, 1024, 1024]⟩
abbrev S16x2x2x1024x1024 : Shape := ⟨5, ![16, 2, 2, 1024, 1024]⟩
abbrev S16x1024x2x1024x2 : Shape := ⟨5, ![16, 1024, 2, 1024, 2]⟩
abbrev S16x2048x2048 : Shape := ⟨3, ![16, 2048, 2048]⟩
abbrev S16x1x2048x2048 : Shape := ⟨4, ![16, 1, 2048, 2048]⟩
abbrev S1x1x1024x1024 : Shape := ⟨4, ![1, 1, 1024, 1024]⟩
abbrev S1024x1024 : Shape := ⟨2, ![1024, 1024]⟩
abbrev S_ : Shape := ⟨0, ![]⟩
abbrev S1x1024x1024 : Shape := ⟨3, ![1, 1024, 1024]⟩
abbrev S4x1024x1024 : Shape := ⟨3, ![4, 1024, 1024]⟩
abbrev S2x2x1024x1024 : Shape := ⟨4, ![2, 2, 1024, 1024]⟩
abbrev S1024x2x1024x2 : Shape := ⟨4, ![1024, 2, 1024, 2]⟩
abbrev S2048x2048 : Shape := ⟨2, ![2048, 2048]⟩
abbrev S1x1x2048x2048 : Shape := ⟨4, ![1, 1, 2048, 2048]⟩

abbrev nBuf : Space → Nat
  | .hbm => 44
  | .vmem => 0
  | .smem => 0
  | _ => 0

abbrev bufTy : (tb : Table) → Fin (tcTables nBuf tb) → BufTy
  | .hbm, ⟨0, _⟩ => ⟨S16x4x1024x1024, .f32⟩
  | .hbm, ⟨1, _⟩ => ⟨S16x2x2x1024x1024, .f32⟩
  | .hbm, ⟨2, _⟩ => ⟨S16x1024x2x1024x2, .f32⟩
  | .hbm, ⟨3, _⟩ => ⟨S16x2048x2048, .f32⟩
  | .hbm, ⟨4, _⟩ => ⟨S16x1x2048x2048, .f32⟩
  | .hbm, ⟨5, _⟩ => ⟨S1x1x1024x1024, .f32⟩
  | .hbm, ⟨6, _⟩ => ⟨S1024x1024, .f32⟩
  | .hbm, ⟨7, _⟩ => ⟨S1x1x1024x1024, .f32⟩
  | .hbm, ⟨8, _⟩ => ⟨S1024x1024, .f32⟩
  | .hbm, ⟨9, _⟩ => ⟨S1x1x1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S_, .f32⟩
  | .hbm, ⟨32, _⟩ => ⟨S1024x1024, .f32⟩
  | .hbm, ⟨33, _⟩ => ⟨S1024x1024, .f32⟩
  | .hbm, ⟨34, _⟩ => ⟨S1x1024x1024, .f32⟩
  | .hbm, ⟨35, _⟩ => ⟨S1x1024x1024, .f32⟩
  | .hbm, ⟨36, _⟩ => ⟨S1x1024x1024, .f32⟩
  | .hbm, ⟨37, _⟩ => ⟨S1x1024x1024, .f32⟩
  | .hbm, ⟨38, _⟩ => ⟨S4x1024x1024, .f32⟩
  | .hbm, ⟨39, _⟩ => ⟨S2x2x1024x1024, .f32⟩
  | .hbm, ⟨40, _⟩ => ⟨S1024x2x1024x2, .f32⟩
  | .hbm, ⟨41, _⟩ => ⟨S2048x2048, .f32⟩
  | .hbm, ⟨42, _⟩ => ⟨S1x1x2048x2048, .f32⟩
  | .hbm, ⟨43, _⟩ => ⟨S16x1x2048x2048, .f32⟩
  | _, _ => ⟨S16x4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_4 : Ref sig .tc := ⟨.hbm, 28, rfl⟩
abbrev main_v22 : Ref sig .tc := ⟨.hbm, 29, rfl⟩
abbrev main_v23 : Ref sig .tc := ⟨.hbm, 30, rfl⟩
abbrev main_cst_5 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]

class Facts₀ : Prop where
  shapeCasts_S16x4x1024x1024_S16x2x2x1024x1024 : S16x4x1024x1024.ShapeCasts S16x2x2x1024x1024
  transposes_S16x2x2x1024x1024_S16x1024x2x1024x2_0_3_2_4_1 : S16x2x2x1024x1024.Transposes [0, 3, 2, 4, 1] S16x1024x2x1024x2
  shapeCasts_S16x1024x2x1024x2_S16x2048x2048 : S16x1024x2x1024x2.ShapeCasts S16x2048x2048
  bcast_S16x2048x2048_S16x1x2048x2048_0_2_3 : S16x2048x2048.BroadcastsInDim S16x1x2048x2048 (![0, 2, 3] : Fin 3 → Fin S16x1x2048x2048.rank)
  slices_S16x4x1024x1024_S1x1x1024x1024_0_0_0_0 : S16x4x1024x1024.Slices ![0, 0, 0, 0] S1x1x1024x1024
  shapeCasts_S1x1x1024x1024_S1024x1024 : S1x1x1024x1024.ShapeCasts S1024x1024
  slices_S16x4x1024x1024_S1x1x1024x1024_0_1_0_0 : S16x4x1024x1024.Slices ![0, 1, 0, 0] S1x1x1024x1024
  slices_S16x4x1024x1024_S1x1x1024x1024_0_2_0_0 : S16x4x1024x1024.Slices ![0, 2, 0, 0] S1x1x1024x1024
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  concatenates_S1x1024x1024_S1x1024x1024_S1x1024x1024_S1x1024x1024_S4x1024x1024_d0 : Shape.Concatenates [S1x1024x1024, S1x1024x1024, S1x1024x1024, S1x1024x1024] S4x1024x1024 0
  shapeCasts_S4x1024x1024_S2x2x1024x1024 : S4x1024x1024.ShapeCasts S2x2x1024x1024
  transposes_S2x2x1024x1024_S1024x2x1024x2_2_1_3_0 : S2x2x1024x1024.Transposes [2, 1, 3, 0] S1024x2x1024x2
  shapeCasts_S1024x2x1024x2_S2048x2048 : S1024x2x1024x2.ShapeCasts S2048x2048
  bcast_S2048x2048_S1x1x2048x2048_2_3 : S2048x2048.BroadcastsInDim S1x1x2048x2048 (![2, 3] : Fin 2 → Fin S1x1x2048x2048.rank)
  bcast_S1x1x2048x2048_S16x1x2048x2048_0_1_2_3 : S1x1x2048x2048.BroadcastsInDim S16x1x2048x2048 (![0, 1, 2, 3] : Fin 4 → Fin S16x1x2048x2048.rank)

variable [Facts₀]

class Facts : Prop extends Facts₀ where

variable [Facts]
-- ==== Proof.LaunchKernel.lean ====
/-
  The launch of the pixel-interleave kernel, for any float instance.

  The kernel has one region on a grid of 16 x 8 x 16 points (row block, column block, batch). Four windows: windows 0 and 1
  are BOTH blocks of the one argument array — window 0 the [1, 4, 64, 128] block of the current batch entry, window 1 the
  same block of batch entry 0 —, windows 2 and 3 are the [1, 1, 128, 256] blocks of the two result arrays. Because two windows
  stand on one array, the array's full share is dealt between them: the left half to window 0, the right half to window 1
  (both only read it), and the launch is the library's theorem for windows that share an array.

  What the body leaves: in window 2's buffer the interleave of window 0's four channels, in window 3's buffer the interleave
  of the four planes computed from window 1's first three channels; the input buffers as found. The run's post names the two
  result arrays after the last write-back and the argument array unchanged.
-/
import proofs.«119876_j61744449847330_2_alg».proof.Proof.Gen.Kernel.Launch
import proofs.«119876_j61744449847330_2_alg».proof.Proof.Gen.Kernel.Skeleton
import proofs.«119876_j61744449847330_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Launch

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered, and the windows' blocks -/

/-- Core `c`'s buffers when the region is entered: as launched (the program is the region alone). -/
abbrev V (c : Dev nD) (b : Ref sig .tc) : Buf (Elt F) ((c : Thread nD τ).loc b) := m ((c : Thread nD τ).loc b)

/-- The program up to its region: nothing. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's buffer holds its block at every point, fetched there or not (where it is not fetched the block
    index has not moved): window 0, fetched at every point. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Window 1, fetched only when the batch coordinate is 0 and kept in place across the other fifteen points. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the two result buffers -/

/-- The whole input block and the whole result block, as the rectangles the body loads and stores through. -/
abbrev rIn : Rect S1x4x64x128 := Rect.unit (s := S1x4x64x128) ![0, 0, 0, 0] S1x4x64x128.size inb_S1x4x64x128_S1x4x64x128_0_0_0_0
abbrev rOut : Rect S1x1x128x256 := Rect.unit (s := S1x1x128x256) ![0, 0, 0, 0] S1x1x128x256.size inb_S1x1x128x256_S1x1x128x256_0_0_0_0

/-- Window 2's buffer after the body: one store of the whole block, the interleave of the four channels of window 0's block. -/
def outX (x0 : Vec F S1x4x64x128 .f32) : Vec F S1x1x128x256 .f32 :=
  View.canon [⟨rOut, k0_pay2 (View.ld x0 rIn)⟩]

/-- Window 3's buffer after the body: one store of the whole block, the interleave of the four planes made from window 1's block. -/
def outCons (x1 : Vec F S1x4x64x128 .f32) : Vec F S1x1x128x256 .f32 :=
  View.canon [⟨rOut, k0_pay1 (k0_pay3 (View.ld x1 rIn))⟩]

/-- One store of the whole block covers it. -/
theorem coverOut (p0 : Vec F S1x1x128x256 .f32) (y : S1x1x128x256.Idx) :
    ∃ pc ∈ ([⟨rOut, p0⟩] : List (View.Piece (Elt F) S1x1x128x256 .f32)), y ∈ pc.1.set :=
  View.cover_of_tiled [⟨rOut, p0⟩] S1x1x128x256.size (by rfl) y

/-! ## The body's triple -/

set_option maxHeartbeats 1000000 in
/-- The body on whole staging buffers — the inputs' at contents `x0`, `x1`, the results' at anything — runs to the
    continuation with the inputs' as they were and the results' at `outX x0` and `outCons x1`. (The body also loads
    each result buffer before storing into it; what it loads is never used.) -/
theorem sound_kernel (c : Dev nD) (E : Set ℕ) (i : grid0.Coords)
    (arg3 : Memref sig .tc .vmem S1x4x64x128 .f32) (harg3 : arg3.IsWhole) (arg4 : Memref sig .tc .vmem S1x4x64x128 .f32) (harg4 : arg4.IsWhole)
    (arg5 : Memref sig .tc .vmem S1x1x128x256 .f32) (harg5 : arg5.IsWhole) (arg6 : Memref sig .tc .vmem S1x1x128x256 .f32) (harg6 : arg6.IsWhole)
    (x0 : Vec F S1x4x64x128 .f32) (x1 : Vec F S1x4x64x128 .f32) (K : PUnit → sProp 𝕄) :
    iprop(owns (c : Thread nD τ) arg3 fullShare x0 ∗ owns (c : Thread nD τ) arg4 fullShare x1
        ∗ (∃ d, owns (c : Thread nD τ) arg5 fullShare d) ∗ (∃ d, owns (c : Thread nD τ) arg6 fullShare d)
        ∗ (iprop(owns (c : Thread nD τ) arg3 fullShare x0 ∗ owns (c : Thread nD τ) arg4 fullShare x1
            ∗ owns (c : Thread nD τ) arg5 fullShare (outX x0) ∗ owns (c : Thread nD τ) arg6 fullShare (outCons x1)) -∗ K ⟨⟩))
      ⊢ wp frame (wpE (defs₀ (F := F)) Variants.none c none) E (cc0__scatter_kernel i arg3 harg3 arg4 harg4 arg5 harg5 arg6 harg6) K := by
  simp only [cc0__scatter_kernel_eq_skeleton]; unfold cc0__scatter_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try dsimp only
    exact View.read_writes_eq_canon _ _ _ (coverOut _)
  iexists _; isplitr
  swap; · iexact H3
  ipureintro
  try dsimp only
  exact View.read_writes_eq_canon _ _ _ (coverOut _)

/-! ## The proof data -/

/-- The proof data of the pipeline on core `c`: the arrays as the region finds them; after the body at point `t` each input
    buffer at its block, window 2's at the interleave of window 0's block, window 3's at the interleave of the planes made
    from window 1's block; the invariant the core's other scoped buffers, untouched; nothing owed. THE SHARES: the argument
    array is read through windows 0 and 1, which hold the left and the right half of its full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outX (iblk m c 0 t)
    | ⟨3, _⟩ => outCons (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outX (iblk m c 0 t) := by dsimp only [dats]
theorem after3 (c : Dev nD) (t : Fin cfg0.N) : (dats m 0 c).after 3 t = outCons (iblk m c 1 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the input buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The argument array's full share, dealt between the two windows that read it -/

/-- The buffers behind the windows' arrays, one by one: the argument array and the two result arrays. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_arg0) ↦{fullShare} V m c main_arg0)
          ∗ (((c.tc : Thread nD τ).loc main_v0_0) ↦{fullShare} V m c main_v0_0)
          ∗ (((c.tc : Thread nD τ).loc main_v0_1) ↦{fullShare} V m c main_v0_1)) :=
  bigSep_eq_bigSepL_of_eq [main_arg0, main_v0_0, main_v0_1] (by decide) (by decide) _

/-- The three buffers behind the four windows, each whole at the full share at the entry contents, are the pipeline's
    arrays at entry: the argument array's points-to is halved, the left half for window 0 and the right half for window 1;
    each result array goes whole to its window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  simp only [View.set_whole]
  iintro ⟨Ha, Hx, Hc⟩
  ihave Ha := (pointsTo_share (PosShare.mem_left_op_right fullShare)).1 $$ Ha
  icases Ha with ⟨Hl, Hr⟩
  isplitl [Hl]; · iexact Hl
  isplitl [Hr]; · iexact Hr
  isplitl [Hx]; · iexact Hx
  iexact Hc

/-! ## The run -/

set_option backward.isDefEq.respectTransparency.types false in
/-- At the compiled mesh, for any values, from any memory with zero counters: every weakly fair execution of the program
    terminates, and in every final state the two result arrays hold what the library computes from the proof data — their
    entry contents overwritten, block by block, by what the body left at each write-back — and the argument array is
    unchanged. -/
theorem run_main : θ_run defs (onTc (τ := τ) (main (F := F))) ⟨m, fun _ => 0, ρ⟩ (fun r => ∀ c : Dev nD,
      r.2.mem ((c.tc : Thread nD τ).loc main_v0_0) = (dats m 0 c).arrAt 2 cfg0.N
      ∧ r.2.mem ((c.tc : Thread nD τ).loc main_v0_1) = (dats m 0 c).arrAt 3 cfg0.N
      ∧ r.2.mem ((c.tc : Thread nD τ).loc main_arg0) = m ((c.tc : Thread nD τ).loc main_arg0)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr
      · iempintro
      · iexact H)
    (hin := fun c => by dsimp only [dats]; iintro ⟨-, H⟩; iexact H)
    (hout := fun c => by
      dsimp only [dats]; iintro H; isplitr
      · iempintro
      · iexact H)
    (QY := fun _ _ => True)
    (hY := fun c s' => by
      iintro ⟨-, -, HSI⟩; imodintro; isplitr
      · ipureintro; trivial
      · iexact HSI)
    (hQ := fun s h c => ⟨(h c).1 2, (h c).1 3,
      ((h c).1 0).trans (((dats m 0 c).arrAt_in 0 rfl _).trans (A_eq m c 0))⟩)

/-- The frame: the program runs to the end, faults nowhere, and leaves its argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2.2) (run_main m ρ)

end Cert.Kernel.Launch

end
-- ==== Proof.LaunchKernelIdeal.lean ====
/-
  The launch of the pixel-interleave kernel, for any float instance.

  The kernel has one region on a grid of 16 x 8 x 16 points (row block, column block, batch). Four windows: windows 0 and 1
  are BOTH blocks of the one argument array — window 0 the [1, 4, 64, 128] block of the current batch entry, window 1 the
  same block of batch entry 0 —, windows 2 and 3 are the [1, 1, 128, 256] blocks of the two result arrays. Because two windows
  stand on one array, the array's full share is dealt between them: the left half to window 0, the right half to window 1
  (both only read it), and the launch is the library's theorem for windows that share an array.

  What the body leaves: in window 2's buffer the interleave of window 0's four channels, in window 3's buffer the interleave
  of the four planes computed from window 1's first three channels; the input buffers as found. The run's post names the two
  result arrays after the last write-back and the argument array unchanged.
-/
import proofs.«119876_j61744449847330_2_alg».proof.Proof.Gen.KernelIdeal.Launch
import proofs.«119876_j61744449847330_2_alg».proof.Proof.Gen.KernelIdeal.Skeleton
import proofs.«119876_j61744449847330_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered, and the windows' blocks -/

/-- Core `c`'s buffers when the region is entered: as launched (the program is the region alone). -/
abbrev V (c : Dev nD) (b : Ref sig .tc) : Buf (Elt F) ((c : Thread nD τ).loc b) := m ((c : Thread nD τ).loc b)

/-- The program up to its region: nothing. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's buffer holds its block at every point, fetched there or not (where it is not fetched the block
    index has not moved): window 0, fetched at every point. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Window 1, fetched only when the batch coordinate is 0 and kept in place across the other fifteen points. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the two result buffers -/

/-- The whole input block and the whole result block, as the rectangles the body loads and stores through. -/
abbrev rIn : Rect S1x4x64x128 := Rect.unit (s := S1x4x64x128) ![0, 0, 0, 0] S1x4x64x128.size inb_S1x4x64x128_S1x4x64x128_0_0_0_0
abbrev rOut : Rect S1x1x128x256 := Rect.unit (s := S1x1x128x256) ![0, 0, 0, 0] S1x1x128x256.size inb_S1x1x128x256_S1x1x128x256_0_0_0_0

/-- Window 2's buffer after the body: one store of the whole block, the interleave of the four channels of window 0's block. -/
def outX (x0 : Vec F S1x4x64x128 .f32) : Vec F S1x1x128x256 .f32 :=
  View.canon [⟨rOut, k0_pay2 (View.ld x0 rIn)⟩]

/-- Window 3's buffer after the body: one store of the whole block, the interleave of the four planes made from window 1's block. -/
def outCons (x1 : Vec F S1x4x64x128 .f32) : Vec F S1x1x128x256 .f32 :=
  View.canon [⟨rOut, k0_pay1 (k0_pay3 (View.ld x1 rIn))⟩]

/-- One store of the whole block covers it. -/
theorem coverOut (p0 : Vec F S1x1x128x256 .f32) (y : S1x1x128x256.Idx) :
    ∃ pc ∈ ([⟨rOut, p0⟩] : List (View.Piece (Elt F) S1x1x128x256 .f32)), y ∈ pc.1.set :=
  View.cover_of_tiled [⟨rOut, p0⟩] S1x1x128x256.size (by rfl) y

/-! ## The body's triple -/

set_option maxHeartbeats 1000000 in
/-- The body on whole staging buffers — the inputs' at contents `x0`, `x1`, the results' at anything — runs to the
    continuation with the inputs' as they were and the results' at `outX x0` and `outCons x1`. (The body also loads
    each result buffer before storing into it; what it loads is never used.) -/
theorem sound_kernel (c : Dev nD) (E : Set ℕ) (i : grid0.Coords)
    (arg3 : Memref sig .tc .vmem S1x4x64x128 .f32) (harg3 : arg3.IsWhole) (arg4 : Memref sig .tc .vmem S1x4x64x128 .f32) (harg4 : arg4.IsWhole)
    (arg5 : Memref sig .tc .vmem S1x1x128x256 .f32) (harg5 : arg5.IsWhole) (arg6 : Memref sig .tc .vmem S1x1x128x256 .f32) (harg6 : arg6.IsWhole)
    (x0 : Vec F S1x4x64x128 .f32) (x1 : Vec F S1x4x64x128 .f32) (K : PUnit → sProp 𝕄) :
    iprop(owns (c : Thread nD τ) arg3 fullShare x0 ∗ owns (c : Thread nD τ) arg4 fullShare x1
        ∗ (∃ d, owns (c : Thread nD τ) arg5 fullShare d) ∗ (∃ d, owns (c : Thread nD τ) arg6 fullShare d)
        ∗ (iprop(owns (c : Thread nD τ) arg3 fullShare x0 ∗ owns (c : Thread nD τ) arg4 fullShare x1
            ∗ owns (c : Thread nD τ) arg5 fullShare (outX x0) ∗ owns (c : Thread nD τ) arg6 fullShare (outCons x1)) -∗ K ⟨⟩))
      ⊢ wp frame (wpE (defs₀ (F := F)) Variants.none c none) E (cc0__scatter_kernel i arg3 harg3 arg4 harg4 arg5 harg5 arg6 harg6) K := by
  simp only [cc0__scatter_kernel_eq_skeleton]; unfold cc0__scatter_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try dsimp only
    exact View.read_writes_eq_canon _ _ _ (coverOut _)
  iexists _; isplitr
  swap; · iexact H3
  ipureintro
  try dsimp only
  exact View.read_writes_eq_canon _ _ _ (coverOut _)

/-! ## The proof data -/

/-- The proof data of the pipeline on core `c`: the arrays as the region finds them; after the body at point `t` each input
    buffer at its block, window 2's at the interleave of window 0's block, window 3's at the interleave of the planes made
    from window 1's block; the invariant the core's other scoped buffers, untouched; nothing owed. THE SHARES: the argument
    array is read through windows 0 and 1, which hold the left and the right half of its full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outX (iblk m c 0 t)
    | ⟨3, _⟩ => outCons (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outX (iblk m c 0 t) := by dsimp only [dats]
theorem after3 (c : Dev nD) (t : Fin cfg0.N) : (dats m 0 c).after 3 t = outCons (iblk m c 1 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the input buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The argument array's full share, dealt between the two windows that read it -/

/-- The buffers behind the windows' arrays, one by one: the argument array and the two result arrays. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_arg0) ↦{fullShare} V m c main_arg0)
          ∗ (((c.tc : Thread nD τ).loc main_v0_0) ↦{fullShare} V m c main_v0_0)
          ∗ (((c.tc : Thread nD τ).loc main_v0_1) ↦{fullShare} V m c main_v0_1)) :=
  bigSep_eq_bigSepL_of_eq [main_arg0, main_v0_0, main_v0_1] (by decide) (by decide) _

/-- The three buffers behind the four windows, each whole at the full share at the entry contents, are the pipeline's
    arrays at entry: the argument array's points-to is halved, the left half for window 0 and the right half for window 1;
    each result array goes whole to its window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  simp only [View.set_whole]
  iintro ⟨Ha, Hx, Hc⟩
  ihave Ha := (pointsTo_share (PosShare.mem_left_op_right fullShare)).1 $$ Ha
  icases Ha with ⟨Hl, Hr⟩
  isplitl [Hl]; · iexact Hl
  isplitl [Hr]; · iexact Hr
  isplitl [Hx]; · iexact Hx
  iexact Hc

/-! ## The run -/

set_option backward.isDefEq.respectTransparency.types false in
/-- At the compiled mesh, for any values, from any memory with zero counters: every weakly fair execution of the program
    terminates, and in every final state the two result arrays hold what the library computes from the proof data — their
    entry contents overwritten, block by block, by what the body left at each write-back — and the argument array is
    unchanged. -/
theorem run_main : θ_run defs (onTc (τ := τ) (main (F := F))) ⟨m, fun _ => 0, ρ⟩ (fun r => ∀ c : Dev nD,
      r.2.mem ((c.tc : Thread nD τ).loc main_v0_0) = (dats m 0 c).arrAt 2 cfg0.N
      ∧ r.2.mem ((c.tc : Thread nD τ).loc main_v0_1) = (dats m 0 c).arrAt 3 cfg0.N
      ∧ r.2.mem ((c.tc : Thread nD τ).loc main_arg0) = m ((c.tc : Thread nD τ).loc main_arg0)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr
      · iempintro
      · iexact H)
    (hin := fun c => by dsimp only [dats]; iintro ⟨-, H⟩; iexact H)
    (hout := fun c => by
      dsimp only [dats]; iintro H; isplitr
      · iempintro
      · iexact H)
    (QY := fun _ _ => True)
    (hY := fun c s' => by
      iintro ⟨-, -, HSI⟩; imodintro; isplitr
      · ipureintro; trivial
      · iexact HSI)
    (hQ := fun s h c => ⟨(h c).1 2, (h c).1 3,
      ((h c).1 0).trans (((dats m 0 c).arrAt_in 0 rfl _).trans (A_eq m c 0))⟩)

/-- The frame: the program runs to the end, faults nowhere, and leaves its argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2.2) (run_main m ρ)

end Cert.KernelIdeal.Launch

end
-- ==== Proof.PixelSpec.lean ====
/-
  What both programs compute, as two functions of the argument array `A : [16, 4, 1024, 1024]`, entry by entry.

  THE INTERLEAVE. Four channels of an H x W image become one 2H x 2W image: pixel (R, C) of the result is taken from
  channel (R mod 2) + 2 (C mod 2), at (R / 2, C / 2). (Channel 0 lands on even rows and even columns, channel 1 on odd rows
  and even columns, channel 2 on even rows and odd columns, channel 3 on odd rows and odd columns.)

  * `interleaved A` is that, batch entry by batch entry: result (b, 0, R, C) = A (b, (R mod 2) + 2 (C mod 2), R / 2, C / 2).
  * `consPlanes A` interleaves four PLANES made from the first three channels of batch entry 0 — the constant one,
    (a0 + 1) / 2, ((a0 + a1) + 1) / 3 and (((a0 + a1) + a2) + 1) / 4, in this order and with the sums associated this way —
    and is the same for every batch entry b.

  The constants are kept as the f32 words of 1, 2, 3 and 4 read at the extended reals; the quotient is the extended reals'
  own (`Ideal.div`). No law of arithmetic joins the two programs: both compute these very expressions, and all the
  proof has to follow is where each entry comes from.
-/
import Idealize.ShloMosaic.PureOps.Ideal
import Idealize.ShloMosaic.Lib.ValueIdx

noncomputable section

namespace Cert.PixelInterleave

open Idealize.ShloMosaic

/-- The argument array's shape and the result arrays' shape. -/
abbrev SArg : Shape := ⟨4, ![16, 4, 1024, 1024]⟩
abbrev SRes : Shape := ⟨4, ![16, 1, 2048, 2048]⟩

/-- Where result entry (b, 0, R, C) of the interleave comes from: (b, (R mod 2) + 2 (C mod 2), R / 2, C / 2). -/
abbrev srcOf (i : SRes.Idx) : SArg.Idx := fun a => match a with
  | ⟨0, _⟩ => ⟨(i 0).val, (i 0).isLt⟩
  | ⟨1, _⟩ => ⟨(i 2).val % 2 + 2 * ((i 3).val % 2), by show (i 2).val % 2 + 2 * ((i 3).val % 2) < 4; omega⟩
  | ⟨2, _⟩ => ⟨(i 2).val / 2, by have h : (i 2).val < 2048 := (i 2).isLt; show (i 2).val / 2 < 1024; omega⟩
  | ⟨3, _⟩ => ⟨(i 3).val / 2, by have h : (i 3).val < 2048 := (i 3).isLt; show (i 3).val / 2 < 1024; omega⟩

/-- Channel `k` of batch entry 0 under result pixel (R, C): (0, k, R / 2, C / 2). -/
abbrev firstOf (k : Fin 4) (i : SRes.Idx) : SArg.Idx := fun a => match a with
  | ⟨0, _⟩ => ⟨0, by show 0 < 16; omega⟩
  | ⟨1, _⟩ => ⟨k.val, k.isLt⟩
  | ⟨2, _⟩ => ⟨(i 2).val / 2, by have h : (i 2).val < 2048 := (i 2).isLt; show (i 2).val / 2 < 1024; omega⟩
  | ⟨3, _⟩ => ⟨(i 3).val / 2, by have h : (i 3).val < 2048 := (i 3).isLt; show (i 3).val / 2 < 1024; omega⟩

/-- The interleave of each batch entry's four channels. -/
def interleaved (A : SArg.Idx → EReal) : SRes.Idx → EReal := fun i => A (srcOf i)

/-- Plane `k` of the four, from the three channel values `a0 a1 a2` under the pixel: 1, (a0 + 1) / 2, ((a0 + a1) + 1) / 3,
    (((a0 + a1) + a2) + 1) / 4. -/
def plane (k : Nat) (a0 a1 a2 : EReal) : EReal :=
  if k = 0 then Ideal.ofBits .f32 0x3F800000#32
  else if k = 1 then Ideal.div (a0 + Ideal.ofBits .f32 0x3F800000#32) (Ideal.ofBits .f32 0x40000000#32)
  else if k = 2 then Ideal.div (a0 + a1 + Ideal.ofBits .f32 0x3F800000#32) (Ideal.ofBits .f32 0x40400000#32)
  else Ideal.div (a0 + a1 + a2 + Ideal.ofBits .f32 0x3F800000#32) (Ideal.ofBits .f32 0x40800000#32)

/-- The interleave of the four planes of batch entry 0, for every batch entry. -/
def consPlanes (A : SArg.Idx → EReal) : SRes.Idx → EReal := fun i =>
  plane ((i 2).val % 2 + 2 * ((i 3).val % 2)) (A (firstOf 0 i)) (A (firstOf 1 i)) (A (firstOf 2 i))

end Cert.PixelInterleave

end
-- ==== Proof.LibStackFour.lean ====
/-
  A stack of four unit-height pieces along the leading axis, read at an index.

  For any extents h and w: the concatenation along axis 0 of four arrays of shape [1, h, w] is the array of shape [4, h, w] whose
  entry (k, r, c) is entry (0, r, c) of piece k. The statement names the piece by a chain of tests on the leading coordinate,
  so that it can be read with the coordinate still symbolic; the reader passes the piece index `p` = (0, r, c) and the two
  facts that say so.
-/
import Idealize.ShloMosaic.Lib.Pipeline.Value

noncomputable section

namespace Cert.LibStackFour

open Idealize.ShloMosaic

/-- The four pieces as the list a concatenation takes. -/
abbrev pieces4 {α : Type} (h w : Nat) (x0 x1 x2 x3 : (⟨3, ![1, h, w]⟩ : Shape).Idx → α) : List ((s : Shape) × (s.Idx → α)) :=
  [⟨⟨3, ![1, h, w]⟩, x0⟩, ⟨⟨3, ![1, h, w]⟩, x1⟩, ⟨⟨3, ![1, h, w]⟩, x2⟩, ⟨⟨3, ![1, h, w]⟩, x3⟩]

/-- Entry `j` of four [1, h, w] pieces stacked along axis 0 is entry `p` = (0, j 1, j 2) of the piece `j 0` names. -/
theorem stack4_apply {α : Type} (h w : Nat)
    (x0 x1 x2 x3 : (⟨3, ![1, h, w]⟩ : Shape).Idx → α)
    (hc : Shape.Concatenates ((pieces4 h w x0 x1 x2 x3).map (·.1)) ⟨3, ![4, h, w]⟩ 0)
    (j : (⟨3, ![4, h, w]⟩ : Shape).Idx) (p : (⟨3, ![1, h, w]⟩ : Shape).Idx)
    (hp1 : (p 1).val = (j 1).val) (hp2 : (p 2).val = (j 2).val) :
    concatenate (⟨3, ![4, h, w]⟩ : Shape) 0 (pieces4 h w x0 x1 x2 x3) hc j
      = if (j 0).val = 0 then x0 p else if (j 0).val = 1 then x1 p else if (j 0).val = 2 then x2 p else x3 p := by
  have hj : (j 0).val < 4 := (j 0).isLt
  have hp0 : (p 0).val = 0 := by have h1 : (p 0).val < 1 := (p 0).isLt; omega
  have hi : ∀ b : Fin (⟨3, ![1, h, w]⟩ : Shape).rank, b.cast (rfl : (⟨3, ![1, h, w]⟩ : Shape).rank = (⟨3, ![4, h, w]⟩ : Shape).rank) ≠ 0 →
      (p b).val = (j (b.cast rfl)).val := fun b hb => match b, hb with
    | ⟨0, _⟩, hb => absurd rfl hb
    | ⟨1, _⟩, _ => hp1
    | ⟨2, _⟩, _ => hp2
  rcases (by omega : (j 0).val = 0 ∨ (j 0).val = 1 ∨ (j 0).val = 2 ∨ (j 0).val = 3) with e | e | e | e
  · rw [if_pos e]
    exact concatenate_apply_piece 0 (pieces4 h w x0 x1 x2 x3) hc j 0 (by show 0 < 4; omega) _ x0 rfl rfl 0 rfl p hi (by show 0 + (p 0).val = (j 0).val; omega)
  · rw [if_neg (by omega), if_pos e]
    exact concatenate_apply_piece 0 (pieces4 h w x0 x1 x2 x3) hc j 1 (by show 1 < 4; omega) _ x1 rfl rfl 1 rfl p hi (by show 1 + (p 0).val = (j 0).val; omega)
  · rw [if_neg (by omega), if_neg (by omega), if_pos e]
    exact concatenate_apply_piece 0 (pieces4 h w x0 x1 x2 x3) hc j 2 (by show 2 < 4; omega) _ x2 rfl rfl 2 rfl p hi (by show 2 + (p 0).val = (j 0).val; omega)
  · rw [if_neg (by omega), if_neg (by omega), if_neg (by omega)]
    exact concatenate_apply_piece 0 (pieces4 h w x0 x1 x2 x3) hc j 3 (by show 3 < 4; omega) _ x3 rfl rfl 3 rfl p hi (by show 3 + (p 0).val = (j 0).val; omega)

end Cert.LibStackFour

end
-- ==== Proof.BlockValue.lean ====
/-
  The two values the body stores, read at an entry of the [1, 1, 128, 256] result block.

  Both are one chain of re-layings of a [4, 64, 128] stack `v` of four planes: fold the leading axis to 2 x 2, move the axes to
  (row, row parity, column, column parity), flatten to 128 x 256, add two unit axes. Followed index by index (each step is one
  row-major identity over literal extents), entry (0, 0, R, C) of the result is `v` at plane (R mod 2) + 2 (C mod 2), row R / 2,
  column C / 2 (`interleave_apply`).

  * For the first result the stack is the input block itself with its unit axis dropped, so the stored value at (0, 0, R, C) is the
    block at (0, (R mod 2) + 2 (C mod 2), R / 2, C / 2) (`storedX_apply`, at any float instance).
  * For the second result the stack is made of four planes computed from channels 0, 1, 2 of the other input block: at the extended
    reals, plane k at (r, c) is `plane k` of the three channel values at (r, c) (`planes_apply`), so the stored value is that
    at k = (R mod 2) + 2 (C mod 2), r = R / 2, c = C / 2 (`storedCons_apply`).
-/
import proofs.«119876_j61744449847330_2_alg».proof.Proof.Gen.KernelIdeal.Skeleton
import proofs.«119876_j61744449847330_2_alg».proof.Proof.PixelSpec
import proofs.«119876_j61744449847330_2_alg».proof.Proof.LibStackFour
import Idealize.ShloMosaic.Lib.Pipeline.Value
import Idealize.ShloMosaic.Lib.ValueIdx

noncomputable section

namespace Cert.KernelIdeal.BlockValue

open Cert.KernelIdeal Cert.KernelIdeal.Gen Idealize.ShloMosaic Idealize.ShloMosaic.ValueIdx Cert.PixelInterleave

/-! ## The indices met along the chain, from the block entry (0, 0, R, C) -/

/-- (R, C) -/
abbrev pix (y : S1x1x128x256.Idx) : S128x256.Idx := fun a => match a with
  | ⟨0, _⟩ => ⟨(y 2).val, (y 2).isLt⟩
  | ⟨1, _⟩ => ⟨(y 3).val, (y 3).isLt⟩

/-- (R / 2, R mod 2, C / 2, C mod 2) -/
abbrev halves (y : S1x1x128x256.Idx) : S64x2x128x2.Idx := fun a => match a with
  | ⟨0, _⟩ => ⟨(y 2).val / 2, by have h : (y 2).val < 128 := (y 2).isLt; show (y 2).val / 2 < 64; omega⟩
  | ⟨1, _⟩ => ⟨(y 2).val % 2, by show (y 2).val % 2 < 2; omega⟩
  | ⟨2, _⟩ => ⟨(y 3).val / 2, by have h : (y 3).val < 256 := (y 3).isLt; show (y 3).val / 2 < 128; omega⟩
  | ⟨3, _⟩ => ⟨(y 3).val % 2, by show (y 3).val % 2 < 2; omega⟩

/-- (C mod 2, R mod 2, R / 2, C / 2) -/
abbrev parities (y : S1x1x128x256.Idx) : S2x2x64x128.Idx := fun a => match a with
  | ⟨0, _⟩ => ⟨(y 3).val % 2, by show (y 3).val % 2 < 2; omega⟩
  | ⟨1, _⟩ => ⟨(y 2).val % 2, by show (y 2).val % 2 < 2; omega⟩
  | ⟨2, _⟩ => ⟨(y 2).val / 2, by have h : (y 2).val < 128 := (y 2).isLt; show (y 2).val / 2 < 64; omega⟩
  | ⟨3, _⟩ => ⟨(y 3).val / 2, by have h : (y 3).val < 256 := (y 3).isLt; show (y 3).val / 2 < 128; omega⟩

/-- ((R mod 2) + 2 (C mod 2), R / 2, C / 2): the plane and the place in it. -/
abbrev planeAt (y : S1x1x128x256.Idx) : S4x64x128.Idx := fun a => match a with
  | ⟨0, _⟩ => ⟨(y 2).val % 2 + 2 * ((y 3).val % 2), by show (y 2).val % 2 + 2 * ((y 3).val % 2) < 4; omega⟩
  | ⟨1, _⟩ => ⟨(y 2).val / 2, by have h : (y 2).val < 128 := (y 2).isLt; show (y 2).val / 2 < 64; omega⟩
  | ⟨2, _⟩ => ⟨(y 3).val / 2, by have h : (y 3).val < 256 := (y 3).isLt; show (y 3).val / 2 < 128; omega⟩

/-- Channel `k` of the input block at the place a stack index `j` names: (0, k, j 1, j 2). -/
abbrev chanOf (k : Nat) (hk : k < 4) (j : S4x64x128.Idx) : S1x4x64x128.Idx := fun a => match a with
  | ⟨0, _⟩ => ⟨0, by show 0 < 1; omega⟩
  | ⟨1, _⟩ => ⟨k, hk⟩
  | ⟨2, _⟩ => ⟨(j 1).val, (j 1).isLt⟩
  | ⟨3, _⟩ => ⟨(j 2).val, (j 2).isLt⟩

/-- The place of a stack index in one plane kept with a leading unit axis, (0, j 1, j 2), and without it, (j 1, j 2). -/
abbrev rowOf (j : S4x64x128.Idx) : S1x64x128.Idx := fun a => match a with
  | ⟨0, _⟩ => ⟨0, by show 0 < 1; omega⟩
  | ⟨1, _⟩ => ⟨(j 1).val, (j 1).isLt⟩
  | ⟨2, _⟩ => ⟨(j 2).val, (j 2).isLt⟩
abbrev placeOf (j : S4x64x128.Idx) : S64x128.Idx := fun a => match a with
  | ⟨0, _⟩ => ⟨(j 1).val, (j 1).isLt⟩
  | ⟨1, _⟩ => ⟨(j 2).val, (j 2).isLt⟩

/-! ## The interleave of a stack of four planes, at an entry -/

/-- Fold, move the axes, flatten, add two unit axes: entry (0, 0, R, C) is the stack at ((R mod 2) + 2 (C mod 2), R / 2, C / 2). -/
theorem interleave_apply {α : Type} (v : S4x64x128.Idx → α)
    (h1 : S4x64x128.ShapeCasts S2x2x64x128) (h2 : S2x2x64x128.Transposes [2, 1, 3, 0] S64x2x128x2)
    (h3 : S64x2x128x2.ShapeCasts S128x256) (h4 : S128x256.ShapeCasts S1x1x128x256) (y : S1x1x128x256.Idx) :
    shapeCast S1x1x128x256 (shapeCast S128x256 (transpose S64x2x128x2 [2, 1, 3, 0] (shapeCast S2x2x64x128 v h1) h2) h3) h4 y
      = v (planeAt y) := by
  have y0 : (y 0).val < 1 := (y 0).isLt
  have y1 : (y 1).val < 1 := (y 1).isLt
  have y2 : (y 2).val < 128 := (y 2).isLt
  have y3 : (y 3).val < 256 := (y 3).isLt
  refine (shapeCast_apply _ h4 y (pix y) ?_).trans ?_
  · rewrite [Shape.rowMajor_val_two, Shape.rowMajor_val_four]
    show (y 2).val * 256 + (y 3).val = (((y 0).val * 1 + (y 1).val) * 128 + (y 2).val) * 256 + (y 3).val
    omega
  refine (shapeCast_apply _ h3 (pix y) (halves y) ?_).trans ?_
  · rewrite [Shape.rowMajor_val_four, Shape.rowMajor_val_two]
    show (((y 2).val / 2 * 2 + (y 2).val % 2) * 128 + (y 3).val / 2) * 2 + (y 3).val % 2 = (y 2).val * 256 + (y 3).val
    omega
  refine (transpose_apply [2, 1, 3, 0] _ h2 (halves y) (parities y) (fun b => match b with
    | ⟨0, _⟩ => rfl
    | ⟨1, _⟩ => rfl
    | ⟨2, _⟩ => rfl
    | ⟨3, _⟩ => rfl)).trans ?_
  refine shapeCast_apply v h1 (parities y) (planeAt y) ?_
  rewrite [Shape.rowMajor_val_three, Shape.rowMajor_val_four]
  show (((y 2).val % 2 + 2 * ((y 3).val % 2)) * 64 + (y 2).val / 2) * 128 + (y 3).val / 2
    = ((((y 3).val % 2) * 2 + (y 2).val % 2) * 64 + (y 2).val / 2) * 128 + (y 3).val / 2
  omega

/-! ## The first stored value: the input block's four channels, interleaved -/

variable {F : FTy → Type} [FloatOps F]

/-- The input block with its unit axis dropped, at a stack index: the block at (0, j 0, j 1, j 2). -/
theorem dropUnit_apply (v0 : Vec F S1x4x64x128 .f32) (h : S1x4x64x128.ShapeCasts S4x64x128) (j : S4x64x128.Idx) :
    shapeCast S4x64x128 v0 h j = v0 (chanOf (j 0).val (j 0).isLt j) := by
  have j0 : (j 0).val < 4 := (j 0).isLt
  refine shapeCast_apply v0 h j _ ?_
  rewrite [Shape.rowMajor_val_four, Shape.rowMajor_val_three]
  show ((0 * 4 + (j 0).val) * 64 + (j 1).val) * 128 + (j 2).val = ((j 0).val * 64 + (j 1).val) * 128 + (j 2).val
  omega

/-- What the body stores into the first result's buffer, at (0, 0, R, C): the input block at
    (0, (R mod 2) + 2 (C mod 2), R / 2, C / 2). -/
theorem storedX_apply (v0 : Vec F S1x4x64x128 .f32) (y : S1x1x128x256.Idx) :
    k0_pay2 v0 y = v0 (chanOf (planeAt y 0).val (planeAt y 0).isLt (planeAt y)) := by
  unfold k0_pay2
  dsimp only
  exact (interleave_apply _ _ _ _ _ y).trans (dropUnit_apply v0 _ (planeAt y))

/-! ## The second stored value: the four planes, interleaved -/

/-- One channel cut out of the input block (its unit axis dropped, one plane sliced, that plane's unit axis dropped), at a
    place: the block at (0, k, r, c). -/
theorem channel_apply (v8 : Vec F S1x4x64x128 .f32) (k : Nat) (hk : k < 4)
    (h0 : S1x4x64x128.ShapeCasts S4x64x128) (h1 : S4x64x128.Slices ![k, 0, 0] S1x64x128) (h2 : S1x64x128.ShapeCasts S64x128)
    (j : S4x64x128.Idx) :
    shapeCast S64x128 (extractStridedSlice S1x64x128 ![k, 0, 0] (shapeCast S4x64x128 v8 h0) h1) h2 (placeOf j) = v8 (chanOf k hk j) := by
  have j1 : (j 1).val < 64 := (j 1).isLt
  have j2 : (j 2).val < 128 := (j 2).isLt
  refine (shapeCast_apply _ h2 (placeOf j) (rowOf j) ?_).trans ?_
  · rewrite [Shape.rowMajor_val_three, Shape.rowMajor_val_two]
    show (0 * 64 + (j 1).val) * 128 + (j 2).val = (j 1).val * 128 + (j 2).val
    omega
  refine (extractStridedSlice_apply ![k, 0, 0] _ h1 (rowOf j) (fun a => match a with
      | ⟨0, _⟩ => ⟨k, hk⟩
      | ⟨1, _⟩ => ⟨(j 1).val, (j 1).isLt⟩
      | ⟨2, _⟩ => ⟨(j 2).val, (j 2).isLt⟩) (fun a => match a with
    | ⟨0, _⟩ => by show k = k + 0; omega
    | ⟨1, _⟩ => by show (j 1).val = 0 + (j 1).val; omega
    | ⟨2, _⟩ => by show (j 2).val = 0 + (j 2).val; omega)).trans ?_
  refine shapeCast_apply v8 h0 _ (chanOf k hk j) ?_
  rewrite [Shape.rowMajor_val_four, Shape.rowMajor_val_three]
  show ((0 * 4 + k) * 64 + (j 1).val) * 128 + (j 2).val = (k * 64 + (j 1).val) * 128 + (j 2).val
  omega

/-- A plane given a leading unit axis, at (0, r, c): the plane at (r, c). -/
theorem addUnit_apply {α : Type} (u : S64x128.Idx → α) (h : S64x128.ShapeCasts S1x64x128) (j : S4x64x128.Idx) :
    shapeCast S1x64x128 u h (rowOf j) = u (placeOf j) := by
  refine shapeCast_apply u h (rowOf j) (placeOf j) ?_
  rewrite [Shape.rowMajor_val_two, Shape.rowMajor_val_three]
  show (j 1).val * 128 + (j 2).val = (0 * 64 + (j 1).val) * 128 + (j 2).val
  omega

/-- The stack of the four planes at the extended reals, at a stack index (k, r, c): `plane k` of channels 0, 1, 2 of the
    input block at (r, c). -/
theorem planes_apply (v8 : Vec Ideal S1x4x64x128 .f32) (j : S4x64x128.Idx) :
    k0_pay3 (F := Ideal) v8 j
      = plane (j 0).val (v8 (chanOf 0 (by omega) j)) (v8 (chanOf 1 (by omega) j)) (v8 (chanOf 2 (by omega) j)) := by
  unfold k0_pay3
  dsimp only
  refine (Cert.LibStackFour.stack4_apply 64 128 _ _ _ _ _ j (rowOf j) rfl rfl).trans ?_
  unfold plane
  simp only [addUnit_apply, addf_apply, divf_apply, broadcast_apply, channel_apply (F := Ideal) v8 0 (by omega),
    channel_apply (F := Ideal) v8 1 (by omega), channel_apply (F := Ideal) v8 2 (by omega)]
  rfl

/-- What the body stores into the second result's buffer, at (0, 0, R, C), at the extended reals: `plane` number
    (R mod 2) + 2 (C mod 2) of channels 0, 1, 2 of the input block at (R / 2, C / 2). -/
theorem storedCons_apply (v8 : Vec Ideal S1x4x64x128 .f32) (y : S1x1x128x256.Idx) :
    k0_pay1 (F := Ideal) (k0_pay3 (F := Ideal) v8) y
      = plane ((y 2).val % 2 + 2 * ((y 3).val % 2)) (v8 (chanOf 0 (by omega) (planeAt y))) (v8 (chanOf 1 (by omega) (planeAt y)))
          (v8 (chanOf 2 (by omega) (planeAt y))) := by
  unfold k0_pay1
  dsimp only
  exact (interleave_apply _ _ _ _ _ y).trans (planes_apply v8 (planeAt y))

end Cert.KernelIdeal.BlockValue

end
-- ==== Proof.ArrayValue.lean ====
/-
  From blocks to arrays: what the two result arrays hold after the run, at the extended reals.

  The grid has 16 x 8 x 16 points (row block hi, column block wi, batch b; b fastest). At a point the first result's window
  writes back the [1, 1, 128, 256] block at block index (b, 0, hi, wi), the second result's window likewise; window 0 reads the
  argument's [1, 4, 64, 128] block at (b, 0, hi, wi) and window 1 the one at (0, 0, hi, wi). These relations between the printed
  index maps are decided once over the 2048 points.

  A result entry (b, 0, 128 hi + R, 256 wi + C) written at that point comes from the input block's entry
  (0, (R mod 2) + 2 (C mod 2), R / 2, C / 2), which is the argument's entry (b or 0, same channel, 64 hi + R / 2, 128 wi + C / 2). Since
  128 hi and 256 wi are even, the parities and halves of the array coordinates are those of R and C shifted by 64 hi and 128 wi:
  each block written back is the block of ONE function of the whole argument array — `interleaved`, resp. `consPlanes`. The blocks of
  all points cover each result array (the point that covers (b, 0, Y, X) is hi = Y / 128, wi = X / 256, that b), so the arrays end
  at those functions.
-/
import proofs.«119876_j61744449847330_2_alg».proof.Proof.LaunchKernelIdeal
import proofs.«119876_j61744449847330_2_alg».proof.Proof.BlockValue
import proofs.«119876_j61744449847330_2_alg».proof.Proof.PixelSpec
import Idealize.ShloMosaic.Lib.Pipeline.Value

set_option maxRecDepth 16384

noncomputable section

namespace Cert.KernelIdeal.ArrayValue

open Cert.KernelIdeal Cert.KernelIdeal.Gen Cert.KernelIdeal.Launch Cert.KernelIdeal.BlockValue Cert.PixelInterleave
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

theorem hzero : (![0, 0, 0, 0] : Fin 4 → Nat) = fun _ => 0 := funext fun a => by fin_cases a <;> rfl

/-! ## The printed index maps, decided over the grid -/

/-- At every point: window 0's block index is the first result window's on the batch, row and column axes and 0 on the channel
    axis; window 1's is 0 on the batch and channel axes and the second result window's on the row and column axes; the result
    windows' block indices are 0 on their unit axis and in range on the others. -/
theorem idx_facts : ∀ t : Fin cfg0.N,
    win0_0.index t (0 : Fin 4) = win0_2.index t (0 : Fin 4) ∧ win0_0.index t (1 : Fin 4) = 0
    ∧ win0_0.index t (2 : Fin 4) = win0_2.index t (2 : Fin 4) ∧ win0_0.index t (3 : Fin 4) = win0_2.index t (3 : Fin 4)
    ∧ win0_1.index t (0 : Fin 4) = 0 ∧ win0_1.index t (1 : Fin 4) = 0
    ∧ win0_1.index t (2 : Fin 4) = win0_3.index t (2 : Fin 4) ∧ win0_1.index t (3 : Fin 4) = win0_3.index t (3 : Fin 4)
    ∧ win0_2.index t (1 : Fin 4) = 0 ∧ win0_3.index t (1 : Fin 4) = 0
    ∧ win0_2.index t (0 : Fin 4) ≤ 15 ∧ win0_2.index t (2 : Fin 4) ≤ 15 ∧ win0_2.index t (3 : Fin 4) ≤ 7
    ∧ win0_3.index t (0 : Fin 4) ≤ 15 ∧ win0_3.index t (2 : Fin 4) ≤ 15 ∧ win0_3.index t (3 : Fin 4) ≤ 7 :=
  (by decide +kernel : ∀ t : Fin grid0.N, _)

/-- The grid point of batch entry `q0`, row block `q2`, column block `q3`. -/
def pointOf (q0 : Fin 16) (q2 : Fin 16) (q3 : Fin 8) : Fin grid0.N :=
  ⟨(q2.val * 8 + q3.val) * 16 + q0.val, by have h0 := q0.isLt; have h2 := q2.isLt; have h3 := q3.isLt; rw [N_0]; omega⟩

/-- Both result windows write back block (q0, 0, q2, q3) at that point. -/
theorem idx_at : ∀ (q0 : Fin 16) (q2 : Fin 16) (q3 : Fin 8),
    win0_2.index (pointOf q0 q2 q3) = ![q0.val, 0, q2.val, q3.val] ∧ win0_3.index (pointOf q0 q2 q3) = ![q0.val, 0, q2.val, q3.val] := by
  decide +kernel

/-! ## What a point writes back -/

/-- The first result: point `t` writes back block `t` of the interleave of the argument array. -/
theorem flushedX_eq (c : Dev nD) (t : Fin cfg0.N) :
    (dats m 0 c).flushed 2 t = ((cfg0.win 2).blk t).view.read (Elt Ideal) (interleaved (V m c main_arg0)) := by
  show (cfg0.win 2).cut (grid0.coords t) ((dats m 0 c).after 2 t) = _
  rw [after2]
  unfold outX
  rw [View.canon_unit_zero hzero]
  simp only [View.ld_unit_zero (S := S1x4x64x128) hzero]
  obtain ⟨e0, e1, e2, e3, -, -, -, -, e8, -, b0, b2, b3, -⟩ := idx_facts t
  funext j
  have j0 : (j 0).val < 1 := (j 0).isLt
  have j1 : (j 1).val < 1 := (j 1).isLt
  have j2 : (j 2).val < 128 := (j 2).isLt
  have j3 : (j 3).val < 256 := (j 3).isLt
  show k0_pay2 (F := Ideal) (iblk m c 0 t) j = interleaved (V m c main_arg0) (((cfg0.win 2).blk t).view.emb j)
  refine (storedX_apply (F := Ideal) _ j).trans ?_
  unfold interleaved
  show V m c main_arg0 (((cfg0.win 0).blk t).view.emb (chanOf (planeAt j 0).val (planeAt j 0).isLt (planeAt j))) = V m c main_arg0 (srcOf (((cfg0.win 2).blk t).view.emb j))
  refine congrArg (V m c main_arg0) (funext fun a => Fin.ext ?_)
  match a with
  | ⟨0, _⟩ =>
    show win0_0.index t (0 : Fin 4) * 1 + 1 * 0 = win0_2.index t (0 : Fin 4) * 1 + 1 * (j 0).val
    omega
  | ⟨1, _⟩ =>
    show win0_0.index t (1 : Fin 4) * 4 + 1 * ((j 2).val % 2 + 2 * ((j 3).val % 2))
      = (win0_2.index t (2 : Fin 4) * 128 + 1 * (j 2).val) % 2 + 2 * ((win0_2.index t (3 : Fin 4) * 256 + 1 * (j 3).val) % 2)
    omega
  | ⟨2, _⟩ =>
    show win0_0.index t (2 : Fin 4) * 64 + 1 * ((j 2).val / 2) = (win0_2.index t (2 : Fin 4) * 128 + 1 * (j 2).val) / 2
    omega
  | ⟨3, _⟩ =>
    show win0_0.index t (3 : Fin 4) * 128 + 1 * ((j 3).val / 2) = (win0_2.index t (3 : Fin 4) * 256 + 1 * (j 3).val) / 2
    omega

/-- An entry of the argument array under a block entry of window 1: batch entry 0, channel `k`. -/
theorem firstBlock_eq (c : Dev nD) (t : Fin cfg0.N) (k : Nat) (hk : k < 4) (j : ((cfg0.win 3).xblock (grid0.coords t)).Idx) :
    iblk m c 1 t (chanOf k hk (planeAt j)) = V m c main_arg0 (firstOf ⟨k, hk⟩ (((cfg0.win 3).blk t).view.emb j)) := by
  obtain ⟨-, -, -, -, e4, e5, e6, e7, -, e9, -, -, -, b0, b2, b3⟩ := idx_facts t
  have j2 : (j 2).val < 128 := (j 2).isLt
  have j3 : (j 3).val < 256 := (j 3).isLt
  show V m c main_arg0 (((cfg0.win 1).blk t).view.emb (chanOf k hk (planeAt j))) = _
  refine congrArg (V m c main_arg0) (funext fun a => Fin.ext ?_)
  match a with
  | ⟨0, _⟩ =>
    show win0_1.index t (0 : Fin 4) * 1 + 1 * 0 = 0
    omega
  | ⟨1, _⟩ =>
    show win0_1.index t (1 : Fin 4) * 4 + 1 * k = k
    omega
  | ⟨2, _⟩ =>
    show win0_1.index t (2 : Fin 4) * 64 + 1 * ((j 2).val / 2) = (win0_3.index t (2 : Fin 4) * 128 + 1 * (j 2).val) / 2
    omega
  | ⟨3, _⟩ =>
    show win0_1.index t (3 : Fin 4) * 128 + 1 * ((j 3).val / 2) = (win0_3.index t (3 : Fin 4) * 256 + 1 * (j 3).val) / 2
    omega

/-- The second result: point `t` writes back block `t` of the interleaved planes of batch entry 0. -/
theorem flushedCons_eq (c : Dev nD) (t : Fin cfg0.N) :
    (dats m 0 c).flushed 3 t = ((cfg0.win 3).blk t).view.read (Elt Ideal) (consPlanes (V m c main_arg0)) := by
  show (cfg0.win 3).cut (grid0.coords t) ((dats m 0 c).after 3 t) = _
  rw [after3]
  unfold outCons
  rw [View.canon_unit_zero hzero]
  simp only [View.ld_unit_zero (S := S1x4x64x128) hzero]
  obtain ⟨-, -, -, -, -, -, -, -, -, e9, -, -, -, b0, b2, b3⟩ := idx_facts t
  funext j
  have j2 : (j 2).val < 128 := (j 2).isLt
  have j3 : (j 3).val < 256 := (j 3).isLt
  show k0_pay1 (F := Ideal) (k0_pay3 (F := Ideal) (iblk m c 1 t)) j = consPlanes (V m c main_arg0) (((cfg0.win 3).blk t).view.emb j)
  refine (storedCons_apply _ j).trans ?_
  unfold consPlanes
  rw [firstBlock_eq m c t 0 (by omega) j, firstBlock_eq m c t 1 (by omega) j, firstBlock_eq m c t 2 (by omega) j]
  refine congrArg (fun k => plane k _ _ _) ?_
  show (j 2).val % 2 + 2 * ((j 3).val % 2)
    = (win0_3.index t (2 : Fin 4) * 128 + 1 * (j 2).val) % 2 + 2 * ((win0_3.index t (3 : Fin 4) * 256 + 1 * (j 3).val) % 2)
  omega

/-! ## The blocks cover the result arrays -/

/-- An index of a result array is in point `t`'s block iff each coordinate is in the block's range on its axis. -/
theorem mem_blk2 (t : Fin cfg0.N) (i : S16x1x2048x2048.Idx) :
    i ∈ ((cfg0.win 2).blk t).view.set ↔ ∀ a : Fin 4, win0_2.index t a * S1x1x128x256.size a ≤ (i a).val ∧ (i a).val < win0_2.index t a * S1x1x128x256.size a + S1x1x128x256.size a := by
  show i ∈ ((View.whole main_v0_0).slice (win0_2.rect t)).set ↔ _
  rw [View.set_slice_whole, Rect.mem_set_unit]
  exact Iff.rfl
theorem mem_blk3 (t : Fin cfg0.N) (i : S16x1x2048x2048.Idx) :
    i ∈ ((cfg0.win 3).blk t).view.set ↔ ∀ a : Fin 4, win0_3.index t a * S1x1x128x256.size a ≤ (i a).val ∧ (i a).val < win0_3.index t a * S1x1x128x256.size a + S1x1x128x256.size a := by
  show i ∈ ((View.whole main_v0_1).slice (win0_3.rect t)).set ↔ _
  rw [View.set_slice_whole, Rect.mem_set_unit]
  exact Iff.rfl

/-- Every index of a result array is in the block of the point of its batch entry, row block and column block. -/
theorem cover2 (i : S16x1x2048x2048.Idx) : ∃ t : Fin cfg0.N, (cfg0.win 2).flush t = true ∧ i ∈ ((cfg0.win 2).blk t).view.set := by
  have i0 : (i 0).val < 16 := (i 0).isLt
  have i1 : (i 1).val < 1 := (i 1).isLt
  have i2 : (i 2).val < 2048 := (i 2).isLt
  have i3 : (i 3).val < 2048 := (i 3).isLt
  have ht := (idx_at ⟨(i 0).val, i0⟩ ⟨(i 2).val / 128, by omega⟩ ⟨(i 3).val / 256, by omega⟩).1
  refine ⟨pointOf ⟨(i 0).val, i0⟩ ⟨(i 2).val / 128, by omega⟩ ⟨(i 3).val / 256, by omega⟩, flush0_2 _, ?_⟩
  have q0 := congrFun ht 0
  have q1 := congrFun ht 1
  have q2 := congrFun ht 2
  have q3 := congrFun ht 3
  rw [mem_blk2]
  intro a
  match a with
  | ⟨0, _⟩ => rw [show (⟨0, by omega⟩ : Fin 4) = (0 : Fin 4) from rfl, q0]; show (i 0).val * 1 ≤ (i 0).val ∧ (i 0).val < (i 0).val * 1 + 1; omega
  | ⟨1, _⟩ => rw [show (⟨1, by omega⟩ : Fin 4) = (1 : Fin 4) from rfl, q1]; show 0 * 1 ≤ (i 1).val ∧ (i 1).val < 0 * 1 + 1; omega
  | ⟨2, _⟩ => rw [show (⟨2, by omega⟩ : Fin 4) = (2 : Fin 4) from rfl, q2]; show (i 2).val / 128 * 128 ≤ (i 2).val ∧ (i 2).val < (i 2).val / 128 * 128 + 128; omega
  | ⟨3, _⟩ => rw [show (⟨3, by omega⟩ : Fin 4) = (3 : Fin 4) from rfl, q3]; show (i 3).val / 256 * 256 ≤ (i 3).val ∧ (i 3).val < (i 3).val / 256 * 256 + 256; omega

theorem cover3 (i : S16x1x2048x2048.Idx) : ∃ t : Fin cfg0.N, (cfg0.win 3).flush t = true ∧ i ∈ ((cfg0.win 3).blk t).view.set := by
  have i0 : (i 0).val < 16 := (i 0).isLt
  have i1 : (i 1).val < 1 := (i 1).isLt
  have i2 : (i 2).val < 2048 := (i 2).isLt
  have i3 : (i 3).val < 2048 := (i 3).isLt
  have ht := (idx_at ⟨(i 0).val, i0⟩ ⟨(i 2).val / 128, by omega⟩ ⟨(i 3).val / 256, by omega⟩).2
  refine ⟨pointOf ⟨(i 0).val, i0⟩ ⟨(i 2).val / 128, by omega⟩ ⟨(i 3).val / 256, by omega⟩, flush0_3 _, ?_⟩
  have q0 := congrFun ht 0
  have q1 := congrFun ht 1
  have q2 := congrFun ht 2
  have q3 := congrFun ht 3
  rw [mem_blk3]
  intro a
  match a with
  | ⟨0, _⟩ => rw [show (⟨0, by omega⟩ : Fin 4) = (0 : Fin 4) from rfl, q0]; show (i 0).val * 1 ≤ (i 0).val ∧ (i 0).val < (i 0).val * 1 + 1; omega
  | ⟨1, _⟩ => rw [show (⟨1, by omega⟩ : Fin 4) = (1 : Fin 4) from rfl, q1]; show 0 * 1 ≤ (i 1).val ∧ (i 1).val < 0 * 1 + 1; omega
  | ⟨2, _⟩ => rw [show (⟨2, by omega⟩ : Fin 4) = (2 : Fin 4) from rfl, q2]; show (i 2).val / 128 * 128 ≤ (i 2).val ∧ (i 2).val < (i 2).val / 128 * 128 + 128; omega
  | ⟨3, _⟩ => rw [show (⟨3, by omega⟩ : Fin 4) = (3 : Fin 4) from rfl, q3]; show (i 3).val / 256 * 256 ≤ (i 3).val ∧ (i 3).val < (i 3).val / 256 * 256 + 256; omega

/-! ## The arrays after the run -/

theorem finalX (c : Dev nD) : (dats m 0 c).arrAt 2 cfg0.N = interleaved (m ((c : Thread nD τ).loc main_arg0)) :=
  (dats m 0 c).arrAt_eq_of_cover 2 _ (fun t _ => flushedX_eq m c t) cover2

theorem finalCons (c : Dev nD) : (dats m 0 c).arrAt 3 cfg0.N = consPlanes (m ((c : Thread nD τ).loc main_arg0)) :=
  (dats m 0 c).arrAt_eq_of_cover 3 _ (fun t _ => flushedCons_eq m c t) cover3

/-- The run, read: the two result arrays end at the specification's two functions of the argument array, which is unchanged. -/
theorem run : θ_run defs (onTc (τ := τ) (main (F := Ideal))) ⟨m, fun _ => 0, ρ⟩ (fun r => ∀ c : Dev nD,
      r.2.mem ((c.tc : Thread nD τ).loc main_v0_0) = interleaved (m ((c.tc : Thread nD τ).loc main_arg0))
      ∧ r.2.mem ((c.tc : Thread nD τ).loc main_v0_1) = consPlanes (m ((c.tc : Thread nD τ).loc main_arg0))
      ∧ r.2.mem ((c.tc : Thread nD τ).loc main_arg0) = m ((c.tc : Thread nD τ).loc main_arg0)) :=
  (θ_run defs _ _).mono (fun _ h c => ⟨(h c).1.trans (finalX m c), (h c).2.1.trans (finalCons m c), (h c).2.2⟩) (run_main m ρ)

end Cert.KernelIdeal.ArrayValue

end
-- ==== Proof.RefValue.lean ====
/-
  The reference program's two results are the specification's two functions of the argument array.

  The reference re-lays the whole [16, 4, 1024, 1024] array: fold the channel axis to 2 x 2, move the axes to
  (batch, row, row parity, column, column parity), flatten to [16, 2048, 2048], add a unit axis. Followed index by index, result
  (b, 0, R, C) is the argument at (b, (R mod 2) + 2 (C mod 2), R / 2, C / 2): `interleaved`.

  For the second result it cuts channels 0, 1, 2 out of batch entry 0, makes the four planes 1, (a0 + 1) / 2, ((a0 + a1) + 1) / 3,
  (((a0 + a1) + a2) + 1) / 4, stacks them, re-lays the stack the same way and spreads the one image over the sixteen batch entries:
  `consPlanes`. The host's quotient and sum are, at the extended reals, the very operations the specification is written with.
-/
import proofs.«119876_j61744449847330_2_alg».proof.Proof.Gen.ReferenceIdeal.Read
import proofs.«119876_j61744449847330_2_alg».proof.Proof.PixelSpec
import proofs.«119876_j61744449847330_2_alg».proof.Proof.LibStackFour

noncomputable section

namespace Cert.ReferenceIdeal.RefValue

open Cert.ReferenceIdeal Cert.ReferenceIdeal.Gen Cert.ReferenceIdeal.Read Idealize.ShloMosaic Cert.PixelInterleave

/-! ## The two row-major identities, over plain naturals -/

/-- A position over [16, 2048, 2048] read over [16, 1024, 2, 1024, 2]. -/
theorem unfold_rows (b R C : Nat) (hb : b < 16) (hR : R < 2048) (hC : C < 2048) :
    ((b * 2048 + R) * 2048 + C) / 4194304 = b ∧ ((b * 2048 + R) * 2048 + C) / 4096 % 1024 = R / 2
    ∧ ((b * 2048 + R) * 2048 + C) / 2048 % 2 = R % 2 ∧ ((b * 2048 + R) * 2048 + C) / 2 % 1024 = C / 2
    ∧ ((b * 2048 + R) * 2048 + C) % 2 = C % 2 := by
  refine ⟨?_, ?_, ?_, ?_, ?_⟩ <;> omega

/-- A position over [16, 2, 2, 1024, 1024] read over [16, 4, 1024, 1024]. -/
theorem fold_channels (b dc dr r c : Nat) (hb : b < 16) (hdc : dc < 2) (hdr : dr < 2) (hr : r < 1024) (hc : c < 1024) :
    ((((b * 2 + dc) * 2 + dr) * 1024 + r) * 1024 + c) / 4194304 = b
    ∧ ((((b * 2 + dc) * 2 + dr) * 1024 + r) * 1024 + c) / 1048576 % 4 = dc * 2 + dr
    ∧ ((((b * 2 + dc) * 2 + dr) * 1024 + r) * 1024 + c) / 1024 % 1024 = r
    ∧ ((((b * 2 + dc) * 2 + dr) * 1024 + r) * 1024 + c) % 1024 = c := by
  refine ⟨?_, ?_, ?_, ?_⟩ <;> omega

/-- The same two for one image: [2048, 2048] over [1024, 2, 1024, 2], and [2, 2, 1024, 1024] over [4, 1024, 1024]. -/
theorem unfold_rows1 (R C : Nat) (hR : R < 2048) (hC : C < 2048) :
    (R * 2048 + C) / 4096 = R / 2 ∧ (R * 2048 + C) / 2048 % 2 = R % 2 ∧ (R * 2048 + C) / 2 % 1024 = C / 2 ∧ (R * 2048 + C) % 2 = C % 2 := by
  refine ⟨?_, ?_, ?_, ?_⟩ <;> omega
theorem fold_channels1 (dc dr r c : Nat) (hdc : dc < 2) (hdr : dr < 2) (hr : r < 1024) (hc : c < 1024) :
    (((dc * 2 + dr) * 1024 + r) * 1024 + c) / 1048576 = dc * 2 + dr
    ∧ (((dc * 2 + dr) * 1024 + r) * 1024 + c) / 1024 % 1024 = r
    ∧ (((dc * 2 + dr) * 1024 + r) * 1024 + c) % 1024 = c := by
  refine ⟨?_, ?_, ?_⟩ <;> omega

/-! ## The first result -/

/-- Result (b, 0, R, C) of the re-laid argument is the argument at (b, (R mod 2) + 2 (C mod 2), R / 2, C / 2). -/
theorem first_eq (x0 : (⟨S16x4x1024x1024, .f32⟩ : BufTy).Contents (Elt Ideal)) :
    val_main_v3 (F := Ideal) x0 = interleaved x0 := by
  funext i
  have i0 : (i 0).val < 16 := (i 0).isLt
  have i2 : (i 2).val < 2048 := (i 2).isLt
  have i3 : (i 3).val < 2048 := (i 3).isLt
  rw [val_main_v3_apply, val_main_v2_apply, val_main_v1_apply, val_main_v0_apply]
  unfold interleaved
  refine congrArg x0 (funext fun a => Fin.ext ?_)
  obtain ⟨f0, f1, f2, f3, f4⟩ := unfold_rows (i 0).val (i 2).val (i 3).val i0 i2 i3
  obtain ⟨g0, g1, g2, g3⟩ := fold_channels (i 0).val ((i 3).val % 2) ((i 2).val % 2) ((i 2).val / 2) ((i 3).val / 2) i0
    (by omega) (by omega) (by omega) (by omega)
  match a with
  | ⟨0, _⟩ => dsimp only; simp only [f0, f1, f2, f3, f4, g0]
  | ⟨1, _⟩ => dsimp only; simp only [f0, f1, f2, f3, f4, g1]; omega
  | ⟨2, _⟩ => dsimp only; simp only [f0, f1, f2, f3, f4, g2]
  | ⟨3, _⟩ => dsimp only; simp only [f0, f1, f2, f3, f4, g3]

/-! ## The second result -/

/-- The place of a stack index in one plane, with and without the leading unit axis. -/
abbrev rowOf (j : S4x1024x1024.Idx) : S1x1024x1024.Idx := fun a => match a with
  | ⟨0, _⟩ => ⟨0, by show 0 < 1; omega⟩
  | ⟨1, _⟩ => ⟨(j 1).val, (j 1).isLt⟩
  | ⟨2, _⟩ => ⟨(j 2).val, (j 2).isLt⟩
abbrev placeOf (j : S4x1024x1024.Idx) : S1024x1024.Idx := fun a => match a with
  | ⟨0, _⟩ => ⟨(j 1).val, (j 1).isLt⟩
  | ⟨1, _⟩ => ⟨(j 2).val, (j 2).isLt⟩
/-- Channel `k` of batch entry 0 at a place: (0, k, r, c). -/
abbrev chanOf (k : Nat) (hk : k < 4) (q : S1024x1024.Idx) : S16x4x1024x1024.Idx := fun a => match a with
  | ⟨0, _⟩ => ⟨0, by show 0 < 16; omega⟩
  | ⟨1, _⟩ => ⟨k, hk⟩
  | ⟨2, _⟩ => ⟨(q 0).val, (q 0).isLt⟩
  | ⟨3, _⟩ => ⟨(q 1).val, (q 1).isLt⟩

/-- The three channels cut out of batch entry 0, at a place. -/
theorem chan0_apply (x0 : (⟨S16x4x1024x1024, .f32⟩ : BufTy).Contents (Elt Ideal)) (q : S1024x1024.Idx) :
    val_main_v5 (F := Ideal) x0 q = x0 (chanOf 0 (by omega) q) := by
  have q0 : (q 0).val < 1024 := (q 0).isLt
  have q1 : (q 1).val < 1024 := (q 1).isLt
  rw [val_main_v5_apply, val_main_v4_apply]
  refine congrArg x0 (funext fun a => Fin.ext ?_)
  match a with
  | ⟨0, _⟩ => rfl
  | ⟨1, _⟩ => rfl
  | ⟨2, _⟩ => dsimp only; omega
  | ⟨3, _⟩ => dsimp only; omega
theorem chan1_apply (x0 : (⟨S16x4x1024x1024, .f32⟩ : BufTy).Contents (Elt Ideal)) (q : S1024x1024.Idx) :
    val_main_v7 (F := Ideal) x0 q = x0 (chanOf 1 (by omega) q) := by
  have q0 : (q 0).val < 1024 := (q 0).isLt
  have q1 : (q 1).val < 1024 := (q 1).isLt
  rw [val_main_v7_apply, val_main_v6_apply]
  refine congrArg x0 (funext fun a => Fin.ext ?_)
  match a with
  | ⟨0, _⟩ => rfl
  | ⟨1, _⟩ => rfl
  | ⟨2, _⟩ => dsimp only; omega
  | ⟨3, _⟩ => dsimp only; omega
theorem chan2_apply (x0 : (⟨S16x4x1024x1024, .f32⟩ : BufTy).Contents (Elt Ideal)) (q : S1024x1024.Idx) :
    val_main_v9 (F := Ideal) x0 q = x0 (chanOf 2 (by omega) q) := by
  have q0 : (q 0).val < 1024 := (q 0).isLt
  have q1 : (q 1).val < 1024 := (q 1).isLt
  rw [val_main_v9_apply, val_main_v8_apply]
  refine congrArg x0 (funext fun a => Fin.ext ?_)
  match a with
  | ⟨0, _⟩ => rfl
  | ⟨1, _⟩ => rfl
  | ⟨2, _⟩ => dsimp only; omega
  | ⟨3, _⟩ => dsimp only; omega

/-- A plane spread to a leading unit axis reads, at (0, r, c), the plane at (r, c): the four spreads' index functions. -/
theorem spread26 (j : S4x1024x1024.Idx) : idx_main_v26 (rowOf j) = placeOf j :=
  funext fun a => match a with | ⟨0, _⟩ => rfl | ⟨1, _⟩ => rfl
theorem spread27 (j : S4x1024x1024.Idx) : idx_main_v27 (rowOf j) = placeOf j :=
  funext fun a => match a with | ⟨0, _⟩ => rfl | ⟨1, _⟩ => rfl
theorem spread28 (j : S4x1024x1024.Idx) : idx_main_v28 (rowOf j) = placeOf j :=
  funext fun a => match a with | ⟨0, _⟩ => rfl | ⟨1, _⟩ => rfl
theorem spread29 (j : S4x1024x1024.Idx) : idx_main_v29 (rowOf j) = placeOf j :=
  funext fun a => match a with | ⟨0, _⟩ => rfl | ⟨1, _⟩ => rfl

/-- The stack of the four planes at a stack index (k, r, c): `plane k` of channels 0, 1, 2 of batch entry 0 at (r, c). -/
theorem planes_apply (x0 : (⟨S16x4x1024x1024, .f32⟩ : BufTy).Contents (Elt Ideal)) (j : S4x1024x1024.Idx) :
    val_main_v30 (F := Ideal) x0 j
      = plane (j 0).val (x0 (chanOf 0 (by omega) (placeOf j))) (x0 (chanOf 1 (by omega) (placeOf j))) (x0 (chanOf 2 (by omega) (placeOf j))) := by
  unfold val_main_v30
  refine (Cert.LibStackFour.stack4_apply 1024 1024 _ _ _ _ _ j (rowOf j) rfl rfl).trans ?_
  unfold plane
  rw [val_main_v26_apply, val_main_v27_apply, val_main_v28_apply, val_main_v29_apply, spread26, spread27, spread28, spread29,
    val_main_v10_apply, val_main_cst_apply,
    val_main_v14_apply, val_main_v12_apply, val_main_v11_apply, val_main_cst_0_apply, val_main_v13_apply, val_main_cst_1_apply,
    val_main_v19_apply, val_main_v17_apply, val_main_v15_apply, val_main_v16_apply, val_main_cst_2_apply, val_main_v18_apply, val_main_cst_3_apply,
    val_main_v25_apply, val_main_v23_apply, val_main_v21_apply, val_main_v20_apply, val_main_v22_apply, val_main_cst_4_apply, val_main_v24_apply, val_main_cst_5_apply,
    chan0_apply, chan1_apply, chan2_apply]
  rfl

/-- Result (b, 0, R, C) of the second result is `plane` number (R mod 2) + 2 (C mod 2) of channels 0, 1, 2 of batch entry 0 at
    (R / 2, C / 2), whatever b. -/
theorem second_eq (x0 : (⟨S16x4x1024x1024, .f32⟩ : BufTy).Contents (Elt Ideal)) :
    val_main_v35 (F := Ideal) x0 = consPlanes x0 := by
  funext i
  have i2 : (i 2).val < 2048 := (i 2).isLt
  have i3 : (i 3).val < 2048 := (i 3).isLt
  rw [val_main_v35_apply, val_main_v34_apply, val_main_v33_apply, val_main_v32_apply, val_main_v31_apply]
  obtain ⟨f1, f2, f3, f4⟩ := unfold_rows1 (i 2).val (i 3).val i2 i3
  obtain ⟨g0, g1, g2⟩ := fold_channels1 ((i 3).val % 2) ((i 2).val % 2) ((i 2).val / 2) ((i 3).val / 2) (by omega) (by omega) (by omega) (by omega)
  have J0 : ((idx_main_v31 (idx_main_v32 (idx_main_v33 (idx_main_v34 (idx_main_v35 i))))) 0).val = (i 2).val % 2 + 2 * ((i 3).val % 2) := by
    dsimp only; simp only [f1, f2, f3, f4, g0]; omega
  have J1 : ((idx_main_v31 (idx_main_v32 (idx_main_v33 (idx_main_v34 (idx_main_v35 i))))) 1).val = (i 2).val / 2 := by
    dsimp only; simp only [f1, f2, f3, f4, g1]
  have J2 : ((idx_main_v31 (idx_main_v32 (idx_main_v33 (idx_main_v34 (idx_main_v35 i))))) 2).val = (i 3).val / 2 := by
    dsimp only; simp only [f1, f2, f3, f4, g2]
  generalize idx_main_v31 (idx_main_v32 (idx_main_v33 (idx_main_v34 (idx_main_v35 i)))) = J at J0 J1 J2 ⊢
  rw [planes_apply]
  unfold consPlanes
  have e : ∀ (k : Nat) (hk : k < 4), chanOf k hk (placeOf J) = firstOf ⟨k, hk⟩ i :=
    fun k hk => funext fun a => Fin.ext (by
      match a with
      | ⟨0, _⟩ => rfl
      | ⟨1, _⟩ => rfl
      | ⟨2, _⟩ => exact J1
      | ⟨3, _⟩ => exact J2)
  rw [J0, e 0, e 1, e 2]
  rfl

end Cert.ReferenceIdeal.RefValue

end
-- ==== Proof.lean ====
/-
  A pixel-interleave kernel against its array-level reference, at the extended reals.

  From an argument `A : [16, 4, 1024, 1024]` both programs make two [16, 1, 2048, 2048] results.
  * The first interleaves the four channels of each batch entry into one image of twice the height and width:
    result (b, 0, R, C) = A (b, (R mod 2) + 2 (C mod 2), R / 2, C / 2).
  * The second interleaves, the same way, four planes made from channels a0, a1, a2 of batch entry 0 — the constant 1, (a0 + 1) / 2,
    ((a0 + a1) + 1) / 3, (((a0 + a1) + a2) + 1) / 4 — and gives every batch entry that one image.

  The kernel works tile by tile: at each of 16 x 8 x 16 grid points it reads a [1, 4, 64, 128] tile of the current batch entry and
  the same tile of batch entry 0 — two windows on the ONE argument array, which therefore share it, each holding half of its full
  share — and writes a [1, 1, 128, 256] tile of each result. The reference re-lays the whole arrays at once. Tile offsets are even,
  so the parity and the half of an array coordinate are the tile's own shifted by the tile's offset: each tile written is the tile of
  the whole-array function, and the tiles cover the results. Both programs add and divide in the same order, by the same words
  (1, 2, 3, 4 as f32), and the kernel's quotient and the host's are one operation at the extended reals; no law of arithmetic and
  no finiteness is used — the precondition is never opened.

  The modules: PixelSpec (the two functions), LibStackFour (four stacked unit pieces read at an index), BlockValue (the body's two
  stored values at a tile entry), LaunchKernelIdeal / LaunchKernel (the launch with the shared array, the run and the frame, one
  file per program), ArrayValue (from tiles to arrays), RefValue (the reference is the same two functions).
-/
import proofs.«119876_j61744449847330_2_alg».proof.Defs
import proofs.«119876_j61744449847330_2_alg».proof.Proof.Gen.Kernel
import proofs.«119876_j61744449847330_2_alg».proof.Proof.Gen.Kernel.Skeleton
import proofs.«119876_j61744449847330_2_alg».proof.Proof.Gen.Kernel.Launch
import proofs.«119876_j61744449847330_2_alg».proof.Proof.Gen.Kernel.Points
import proofs.«119876_j61744449847330_2_alg».proof.Proof.Gen.KernelIdeal
import proofs.«119876_j61744449847330_2_alg».proof.Proof.Gen.KernelIdeal.Skeleton
import proofs.«119876_j61744449847330_2_alg».proof.Proof.Gen.KernelIdeal.Launch
import proofs.«119876_j61744449847330_2_alg».proof.Proof.Gen.KernelIdeal.Points
import proofs.«119876_j61744449847330_2_alg».proof.Proof.Gen.ReferenceIdeal
import proofs.«119876_j61744449847330_2_alg».proof.Proof.Gen.Pre_finite_inputs
import proofs.«119876_j61744449847330_2_alg».proof.Proof.Gen.ReferenceIdeal.Run
import proofs.«119876_j61744449847330_2_alg».proof.Proof.Gen.ReferenceIdeal.Read
import proofs.«119876_j61744449847330_2_alg».proof.Proof.LaunchKernel
import proofs.«119876_j61744449847330_2_alg».proof.Proof.LaunchKernelIdeal
import proofs.«119876_j61744449847330_2_alg».proof.Proof.ArrayValue
import proofs.«119876_j61744449847330_2_alg».proof.Proof.RefValue
import Idealize.ShloMosaic.Adequacy
import Idealize.ShloMosaic.Init

noncomputable section

namespace Cert.Proof

open Idealize.ShloMosaic Idealize.SL.Sem

/-- The word-level kernel runs to the end, faults nowhere and leaves its argument unchanged. -/
theorem frame_kernel : Cert.frame_Kernel := fun m ρ _ => Cert.Kernel.Launch.frame m ρ

/-- So does the kernel read at the extended reals. -/
theorem frame_kernelIdeal : Cert.frame_KernelIdeal := fun m ρ _ => Cert.KernelIdeal.Launch.frame m ρ

/-- So does the reference: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Nothing of the kernel was rewritten when it was read at the extended reals. -/
theorem preserves : Cert.preserves_Kernel_KernelIdeal := trivial

/-- From memories that agree on the argument both programs end with the interleave of the argument's channels as first result
    and the interleave of batch entry 0's four planes as second, the argument unchanged. -/
theorem algebraic : Cert.algebraic_KernelIdeal_ReferenceIdeal := by
  intro m ρ m' ρ' _ hagree
  refine ⟨_, _, Cert.KernelIdeal.ArrayValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [hagree c]
    exact (Cert.ReferenceIdeal.Read.val_main_v3_eq _).trans (Cert.ReferenceIdeal.RefValue.first_eq _)
  · rw [hagree c]
    exact (Cert.ReferenceIdeal.Read.val_main_v35_eq _).trans (Cert.ReferenceIdeal.RefValue.second_eq _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
